-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x131072 : Shape := ⟨3, ![16, 64, 131072]⟩
abbrev S_ : Shape := ⟨0, ![]⟩

class Facts : Prop where
  bcast_S_S16x64x131072 : S_.BroadcastsInDim S16x64x131072 (![] : Fin 0 → Fin S16x64x131072.rank)
  reducesTo_S16x64x131072_S_d0_1_2 : S16x64x131072.ReducesTo [0, 1, 2] S_
  h_S_ : 0 < S_.numel

variable [Facts]

def fn {F : FTy → Type} [FloatOps F] (main_arg0 : FVec F S16x64x131072 .f32) : IVec S_ 1 :=
  let main_v0 : FVec F S16x64x131072 .f32 := Host.absf main_arg0
  let main_cst : FVec F S_ .f32 := constant S_ .f32 0x7F800000#32
  let main_v1 : FVec F S16x64x131072 .f32 := broadcastInDim S16x64x131072 ![] bcast_S_S16x64x131072 main_cst
  let main_v2 : IVec S16x64x131072 1 := cmpf .olt main_v0 main_v1
  let main_c : IVec S_ 1 := constantI S_ 1 1#1
  let main_v3 : IVec S_ 1 := (fun x v => Host.reduce IntOp.andi x v reducesTo_S16x64x131072_S_d0_1_2 h_S_) main_v2 main_c
  main_v3
-- ==== Kernel.lean ====
abbrev S16x64x131072 : Shape := ⟨3, ![16, 64, 131072]⟩
abbrev S1x64x8192 : Shape := ⟨3, ![1, 64, 8192]⟩
abbrev S64x8192 : Shape := ⟨2, ![64, 8192]⟩

abbrev nBuf : Space → Nat
  | .hbm => 2
  | .vmem => 4
  | .smem => 0
  | _ => 0

abbrev bufTy : (tb : Table) → Fin (tcTables nBuf tb) → BufTy
  | .hbm, ⟨0, _⟩ => ⟨S16x64x131072, .f32⟩
  | .hbm, ⟨1, _⟩ => ⟨S16x64x131072, .f32⟩
  | .local _ .vmem, ⟨0, _⟩ => ⟨S1x64x8192, .f32⟩
  | .local _ .vmem, ⟨1, _⟩ => ⟨S1x64x8192, .f32⟩
  | .local _ .vmem, ⟨2, _⟩ => ⟨S1x64x8192, .f32⟩
  | .local _ .vmem, ⟨3, _⟩ => ⟨S1x64x8192, .f32⟩
  | _, _ => ⟨S16x64x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  iota_S64x8192_d0_w32 : S64x8192.Iotas .tc 32 [0]
  rotates_S64x8192_d0 : S64x8192.Rotates 0 none
  shapeCasts_S64x8192_S1x64x8192 : S64x8192.ShapeCasts S1x64x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S16x64x131072.size a
  hwx0_0 : ∀ i : grid0.Coords, EltTy.bits .f32 = 32 ∨ (Rect.block (s := S16x64x131072) S1x64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x8192.size a ≤ S16x64x131072.size a
  hwx0_1 : ∀ i : grid0.Coords, EltTy.bits .f32 = 32 ∨ (Rect.block (s := S16x64x131072) S1x64x8192.size (cc0_transform_1 i) (hinb0_1 i)).WholeWords (EltTy.packing .f32)

variable [Facts₀]

abbrev win0_0 : Pipeline.Window sig grid0 :=
  Pipeline.Window.ofSpec (Memref.whole main_arg0) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x131072 : Shape := ⟨3, ![16, 64, 131072]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16x64x131072, .f32⟩
  | .hbm, ⟨1, _⟩ => ⟨S_, .f32⟩
  | .hbm, ⟨2, _⟩ => ⟨S_, .f32⟩
  | .hbm, ⟨3, _⟩ => ⟨S16x64x131072, .f32⟩
  | _, _ => ⟨S16x64x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x64x131072_S16x64x131072_w1s1p0_0_w64s1p63_0_w1s1p0_0 : S16x64x131072.ReduceWindows (![1, 64, 1] : Fin 3 → Nat) ![1, 1, 1] ![0, 63, 0] ![0, 0, 0] S16x64x131072
  h_S_ : 0 < S_.numel

variable [Facts₀]

class Facts : Prop extends Facts₀ where

variable [Facts]
-- ==== Proof.LibRunningMax.lean ====
/-
  Running maxima by doubling, in any linear order with a least element.

  For a finite sequence `f : Fin n → α` write `window f d i` for the largest of the (at most) `d` entries that end at
  position `i` — the entries at positions `j ≤ i` with `i < j + d`, the least element when there is none — and
  `upTo f i` for the running maximum, the largest entry at a position `≤ i`.

  * A window of one entry is the entry (`window_one`); a window as long as the sequence is the running maximum
    (`window_of_le`).
  * THE DOUBLING STEP (Hillis and Steele's inclusive scan): the window of `d + d` entries ending at `i` is the window of
    `d` entries ending at `i` together with the window of `d` entries ending at `i - d` (`window_double`), and is the
    window of `d` entries alone when `i < d`, for then that window already starts at position `0`
    (`window_double_of_lt`). So `log₂ n` steps `c ↦ max c (c shifted by d, the first d positions masked to ⊥)`,
    `d = 1, 2, 4, …`, take `f` to its running maximum.
  * A LEFT FOLD of `max` from `⊥` over all positions is the supremum over all positions (`foldl_max_finRange`); and
    the fold over a window of `n` positions slid to end at `i`, reading `⊥` before the sequence's start — position
    `k` of the window reads entry `j` when `j + (n - 1) = i + k`, and `⊥` when `i + k < n - 1` — is the running
    maximum at `i` (`foldl_max_slid_window`): the form a windowed reduction with low padding takes.

  Imports only Mathlib.
-/
import Mathlib.Data.Fintype.Basic
import Mathlib.Data.Finset.Lattice.Fold
import Mathlib.Order.Fin.Basic

namespace RunningMax

variable {α : Type*} [LinearOrder α] [OrderBot α] {n : ℕ}

/-- The largest of the entries of `f` at the positions `j ≤ i` with `i < j + d`: the (at most) `d` entries ending at `i`. -/
def window (f : Fin n → α) (d : ℕ) (i : Fin n) : α :=
  (Finset.univ.filter fun j : Fin n => j.val ≤ i.val ∧ i.val < j.val + d).sup f

/-- The running maximum: the largest entry of `f` at a position `≤ i`. -/
def upTo (f : Fin n → α) (i : Fin n) : α :=
  (Finset.univ.filter fun j : Fin n => j.val ≤ i.val).sup f

/-- The window of one entry ending at `i` is the entry at `i`. -/
theorem window_one (f : Fin n → α) (i : Fin n) : window f 1 i = f i := by
  unfold window
  have h : (Finset.univ.filter fun j : Fin n => j.val ≤ i.val ∧ i.val < j.val + 1) = {i} := by
    ext j
    simp only [Finset.mem_filter, Finset.mem_univ, true_and, Finset.mem_singleton]
    constructor
    · rintro ⟨h1, h2⟩; exact Fin.ext (by omega)
    · rintro rfl; omega
  rw [h, Finset.sup_singleton]

/-- A window at least as long as the sequence is the running maximum. -/
theorem window_of_le (f : Fin n → α) {d : ℕ} (hd : n ≤ d) (i : Fin n) : window f d i = upTo f i := by
  unfold window upTo
  congr 1
  ext j
  simp only [Finset.mem_filter, Finset.mem_univ, true_and]
  have hi := i.isLt
  constructor
  · rintro ⟨h1, _⟩; exact h1
  · intro h1; exact ⟨h1, by omega⟩

/-- Doubling, before position `d`: the window of `d` entries already starts at position `0`. -/
theorem window_double_of_lt (f : Fin n → α) {d : ℕ} (i : Fin n) (hi : i.val < d) :
    window f (d + d) i = window f d i := by
  unfold window
  congr 1
  ext j
  simp only [Finset.mem_filter, Finset.mem_univ, true_and]
  constructor
  · rintro ⟨h1, _⟩; exact ⟨h1, by omega⟩
  · rintro ⟨h1, _⟩; exact ⟨h1, by omega⟩

/-- THE DOUBLING STEP: from position `d` on, the `d + d` entries ending at `i` are the `d` ending at `i` and the `d`
    ending at `i - d`. -/
theorem window_double (f : Fin n → α) {d : ℕ} (i i' : Fin n) (hd : d ≤ i.val) (hi' : i'.val = i.val - d) :
    window f (d + d) i = max (window f d i) (window f d i') := by
  unfold window
  rw [← Finset.sup_union]
  congr 1
  ext j
  simp only [Finset.mem_filter, Finset.mem_univ, true_and, Finset.mem_union]
  constructor
  · rintro ⟨h1, h2⟩
    by_cases h : i.val < j.val + d
    · exact Or.inl ⟨h1, h⟩
    · exact Or.inr ⟨by omega, by omega⟩
  · rintro (⟨h1, h2⟩ | ⟨h1, h2⟩)
    · exact ⟨h1, by omega⟩
    · exact ⟨by omega, by omega⟩

/-- A left fold of `max` over a list, from any start, is the start together with the supremum over the list's members. -/
theorem foldl_max_eq {ι : Type*} [DecidableEq ι] (g : ι → α) (l : List ι) (a : α) :
    l.foldl (fun r k => max r (g k)) a = max a (l.toFinset.sup g) := by
  induction l generalizing a with
  | nil => simp
  | cons k l ih =>
    rw [List.foldl_cons, ih, List.toFinset_cons, Finset.sup_insert, max_assoc]

/-- A left fold of `max` from `⊥` over all positions, in their order, is the supremum over all positions. -/
theorem foldl_max_finRange (g : Fin n → α) :
    (List.finRange n).foldl (fun r k => max r (g k)) ⊥ = Finset.univ.sup g := by
  rw [foldl_max_eq, List.toFinset_finRange, max_eq_right bot_le]

/-- The supremum over a window of `n` positions slid to END at `i`, reading `⊥` before the sequence's start, is the
    running maximum at `i`: position `k` of the window reads entry `j` when `j + (n - 1) = i + k` (`hin`) and `⊥`
    when `i + k < n - 1` (`hout`). -/
theorem sup_slid_window (f g : Fin n → α) (i : Fin n)
    (hin : ∀ k j : Fin n, j.val + (n - 1) = i.val + k.val → g k = f j)
    (hout : ∀ k : Fin n, i.val + k.val < n - 1 → g k = ⊥) :
    Finset.univ.sup g = upTo f i := by
  unfold upTo
  have hi := i.isLt
  apply le_antisymm
  · refine Finset.sup_le fun k _ => ?_
    have hk := k.isLt
    by_cases h : i.val + k.val < n - 1
    · rw [hout k h]; exact bot_le
    · rw [hin k ⟨i.val + k.val - (n - 1), by omega⟩ (by show i.val + k.val - (n - 1) + (n - 1) = _; omega)]
      exact Finset.le_sup (f := f) (Finset.mem_filter.mpr ⟨Finset.mem_univ _, by show i.val + k.val - (n - 1) ≤ i.val; omega⟩)
  · refine Finset.sup_le fun j hj => ?_
    have hj' : j.val ≤ i.val := (Finset.mem_filter.mp hj).2
    rw [← hin ⟨j.val + (n - 1) - i.val, by omega⟩ j (by show j.val + (n - 1) = i.val + (j.val + (n - 1) - i.val); omega)]
    exact Finset.le_sup (f := g) (Finset.mem_univ _)

/-- The left fold of `max` from `⊥` over such a slid window is the running maximum at `i`. -/
theorem foldl_max_slid_window (f g : Fin n → α) (i : Fin n)
    (hin : ∀ k j : Fin n, j.val + (n - 1) = i.val + k.val → g k = f j)
    (hout : ∀ k : Fin n, i.val + k.val < n - 1 → g k = ⊥) :
    (List.finRange n).foldl (fun r k => max r (g k)) ⊥ = upTo f i := by
  rw [foldl_max_finRange, sup_slid_window f g i hin hout]

end RunningMax
-- ==== Proof.ScanStep.lean ====
/-
  One step of the doubling scan, read at an entry.

  On a [64, 8192] array `v` of extended reals the step with shift `d` is
      v ↦ max v (select (row < d) (-inf) (v rotated down by d rows)),
  the row number from an iota along axis 0, the comparison signed on 32-bit words, `-inf` the f32 word
  `0xFF800000`, which is the least extended real. Read at row `p`, column `q`: the rotation brings row
  `(p + 64 - d) mod 64`, which is row `p - d` from row `d` on and is masked before it, so the step is
      max (v p q) (if p < d then ⊥ else v (p - d) q)                                   (`step_apply`).
  Hence a step turns "every entry is the largest of the `d` entries of its column ending there" into the same
  with `d + d` (`step_window`): the doubling step of `RunningMax`.
-/
import Idealize.ShloMosaic.Lib.KernelVsHost
import proofs.«169550_j12506944766530_1_alg».proof.Proof.LibRunningMax

noncomputable section

namespace Cert.Scan

open Idealize.ShloMosaic Idealize.ShloMosaic.ValueIdx RunningMax

/-- The shape the scan runs on: 64 rows, 8192 columns. -/
abbrev Tile : Shape := ⟨2, ![64, 8192]⟩

/-- The f32 word of minus infinity is the least extended real. -/
theorem neg_inf_word : Ideal.ofBits .f32 0xFF800000#32 = (⊥ : EReal) := by
  simp [Ideal.ofBits, Ideal.ieee]

/-- Signed comparison of the 32-bit words of two small naturals is the comparison of the naturals. -/
theorem slt_small (a b : ℕ) (ha : a < 2 ^ 31) (hb : b < 2 ^ 31) :
    IntOp.cmpi .slt (BitVec.ofNat 32 a) (BitVec.ofNat 32 b) = if a < b then 1#1 else 0#1 := by
  have ea : (BitVec.ofNat 32 a).toInt = (a : Int) := by
    rw [BitVec.toInt_eq_toNat_of_lt (by rw [BitVec.toNat_ofNat]; omega), BitVec.toNat_ofNat]; congr 1; omega
  have eb : (BitVec.ofNat 32 b).toInt = (b : Int) := by
    rw [BitVec.toInt_eq_toNat_of_lt (by rw [BitVec.toNat_ofNat]; omega), BitVec.toNat_ofNat]; congr 1; omega
  show BitVec.ofBool ((BitVec.ofNat 32 a).slt (BitVec.ofNat 32 b)) = _
  rw [BitVec.slt, ea, eb]
  by_cases h : a < b
  · rw [if_pos h, decide_eq_true (by exact_mod_cast h)]; rfl
  · rw [if_neg h, decide_eq_false (by exact_mod_cast h)]; rfl

/-- One step of the scan with shift `d` (a 32-bit word), as the kernel spells it. -/
def step (d : BitVec 32) (hι : Tile.Iotas .tc 32 [0]) (hρ : Tile.Rotates 0 none) (v : FVec Ideal Tile .f32) :
    FVec Ideal Tile .f32 :=
  maximumf v (select (cmpi .slt (iota .tc Tile 32 [0] hι) (broadcast Tile d))
    (broadcast Tile (Scalar.ofBits (F := Ideal) .f32 0xFF800000#32)) (dynamicRotate 0 d none v hρ))

/-- The step read at row `p`, column `q`. -/
theorem step_apply (d : ℕ) (hd : d < 64) (hι : Tile.Iotas .tc 32 [0]) (hρ : Tile.Rotates 0 none)
    (v : FVec Ideal Tile .f32) (p : Fin 64) (q : Fin 8192) :
    step (BitVec.ofNat 32 d) hι hρ v (ix2 p q)
      = max (v (ix2 p q)) (if p.val < d then ⊥ else v (ix2 ⟨(p.val + 64 - d) % 64, Nat.mod_lt _ (by decide)⟩ q)) := by
  unfold step
  rw [maximumf_apply, select_apply]
  have hc : cmpi .slt (iota .tc Tile 32 [0] hι) (broadcast Tile (BitVec.ofNat 32 d)) (ix2 p q)
      = if p.val < d then 1#1 else 0#1 := by
    show IntOp.cmpi .slt (iota .tc Tile 32 [0] hι (ix2 p q)) (BitVec.ofNat 32 d) = _
    rw [iota_single_apply]
    exact slt_small p.val d (by have := p.isLt; omega) (by omega)
  have hr : dynamicRotate 0 (BitVec.ofNat 32 d) none v hρ (ix2 p q)
      = v (ix2 ⟨(p.val + 64 - d) % 64, Nat.mod_lt _ (by decide)⟩ q) := by
    refine dynamicRotate_apply 0 (BitVec.ofNat 32 d) v hρ (ix2 p q) _ fun b => ?_
    match b with
    | ⟨0, _⟩ =>
      show (p.val + 64 - d) % 64 = (p.val + 64 - (BitVec.ofNat 32 d).toNat % 64) % 64
      rw [BitVec.toNat_ofNat]; omega
    | ⟨1, _⟩ => rfl
  rw [hc, hr]
  show max _ (Scalar.select _ (Ideal.ofBits .f32 0xFF800000#32) _) = _
  rw [neg_inf_word]
  by_cases h : p.val < d
  · rw [if_pos h, if_pos h, select_one]
  · rw [if_neg h, if_neg h, select_zero]

/-- A step doubles the windows: if every entry of `v` is the largest of the `d` entries of its column of `x` ending
    there, every entry of the step's result is the largest of the `d + d`. -/
theorem step_window (d : ℕ) (hd : d < 64) (hι : Tile.Iotas .tc 32 [0]) (hρ : Tile.Rotates 0 none)
    (x : Fin 64 → Fin 8192 → EReal) (v : FVec Ideal Tile .f32)
    (hv : ∀ (p : Fin 64) (q : Fin 8192), v (ix2 p q) = window (fun j => x j q) d p) (p : Fin 64) (q : Fin 8192) :
    step (BitVec.ofNat 32 d) hι hρ v (ix2 p q) = window (fun j => x j q) (d + d) p := by
  rw [step_apply d hd, hv]
  by_cases h : p.val < d
  · rw [if_pos h, max_eq_left bot_le, window_double_of_lt _ p h]
  · rw [if_neg h, hv]
    have hp := p.isLt
    exact (window_double _ p _ (by omega) (by show (p.val + 64 - d) % 64 = p.val - d; omega)).symm

end Cert.Scan

end
-- ==== Proof.KernelBlock.lean ====
/-
  What the kernel body stores, read at an entry of its block.

  The body loads its [1, 64, 8192] input block `P`, drops the unit axis, runs the six steps of the doubling scan with
  shifts 1, 2, 4, 8, 16, 32 (`Cert.Scan.step`), restores the unit axis and stores the result over its whole output
  block. By `Cert.Scan.step_window` the entries after the step with shift `d` are the maxima of the `d + d` entries of
  their column ending there: 1, 2, 4, …, 64 entries, and a window of 64 rows is the whole column up to the row. So the
  stored value at (0, p, q) is the running maximum at row `p` of column `q` of `P`.
-/
import proofs.«169550_j12506944766530_1_alg».proof.Proof.Gen.KernelIdeal.Skeleton
import proofs.«169550_j12506944766530_1_alg».proof.Proof.ScanStep

noncomputable section

namespace Cert.KernelIdeal.Block

open Cert.KernelIdeal Cert.KernelIdeal.Gen Idealize.ShloMosaic Idealize.ShloMosaic.ValueIdx RunningMax Cert.Scan

/-- The stored value is the six steps between the two casts. -/
theorem payload_eq (P : Vec Ideal S1x64x8192 .f32) :
    k0_pay1 (k0_pay2 P) (k0_pay3 P) k0_pay4 (k0_pay5 (F := Ideal))
      = shapeCast S1x64x8192
          (step 32#32 iota_S64x8192_d0_w32 rotates_S64x8192_d0
            (step 16#32 iota_S64x8192_d0_w32 rotates_S64x8192_d0
              (step 8#32 iota_S64x8192_d0_w32 rotates_S64x8192_d0
                (step 4#32 iota_S64x8192_d0_w32 rotates_S64x8192_d0
                  (step 2#32 iota_S64x8192_d0_w32 rotates_S64x8192_d0
                    (step 1#32 iota_S64x8192_d0_w32 rotates_S64x8192_d0
                      (shapeCast S64x8192 P shapeCasts_S1x64x8192_S64x8192)))))))
          shapeCasts_S64x8192_S1x64x8192 := rfl

/-- The block with its unit axis dropped, at (p, q), is the block at (0, p, q): a window of one row. -/
theorem dropped_apply (P : Vec Ideal S1x64x8192 .f32) (p : Fin 64) (q : Fin 8192) :
    shapeCast S64x8192 P shapeCasts_S1x64x8192_S64x8192 (ix2 p q)
      = window (fun j : Fin 64 => P (ix3 0 j q)) 1 p := by
  rw [window_one]
  refine (shapeCast_dropUnit_apply ![64, 8192] P shapeCasts_S1x64x8192_S64x8192 (ix2 p q)).trans ?_
  refine congrArg P (funext fun a => ?_)
  match a with
  | ⟨0, _⟩ => rfl
  | ⟨1, _⟩ => rfl
  | ⟨2, _⟩ => rfl

/-- THE STORED VALUE at (z, p, q) is the running maximum at row `p` of column `q` of the loaded block. -/
theorem payload_apply (P : Vec Ideal S1x64x8192 .f32) (z : Fin 1) (p : Fin 64) (q : Fin 8192) :
    k0_pay1 (k0_pay2 P) (k0_pay3 P) k0_pay4 (k0_pay5 (F := Ideal)) (ix3 z p q)
      = upTo (fun j : Fin 64 => P (ix3 0 j q)) p := by
  rw [payload_eq]
  refine (shapeCast_addUnit_apply ![64, 8192] _ shapeCasts_S64x8192_S1x64x8192 (ix3 z p q)).trans ?_
  have e : (fun a : Fin 2 => ix3 z p q a.succ) = ix2 p q := funext fun a => by
    match a with
    | ⟨0, _⟩ => rfl
    | ⟨1, _⟩ => rfl
  rw [e, ← window_of_le (fun j : Fin 64 => P (ix3 0 j q)) (le_refl 64) p]
  have h1 := step_window 1 (by decide) iota_S64x8192_d0_w32 rotates_S64x8192_d0 (fun j q => P (ix3 0 j q)) _ (dropped_apply P)
  have h2 := step_window 2 (by decide) iota_S64x8192_d0_w32 rotates_S64x8192_d0 (fun j q => P (ix3 0 j q)) _ h1
  have h4 := step_window 4 (by decide) iota_S64x8192_d0_w32 rotates_S64x8192_d0 (fun j q => P (ix3 0 j q)) _ h2
  have h8 := step_window 8 (by decide) iota_S64x8192_d0_w32 rotates_S64x8192_d0 (fun j q => P (ix3 0 j q)) _ h4
  have h16 := step_window 16 (by decide) iota_S64x8192_d0_w32 rotates_S64x8192_d0 (fun j q => P (ix3 0 j q)) _ h8
  exact step_window 32 (by decide) iota_S64x8192_d0_w32 rotates_S64x8192_d0 (fun j q => P (ix3 0 j q)) _ h16 p q

end Cert.KernelIdeal.Block

end
-- ==== Proof.Spec.lean ====
/-
  The specification: the cumulative maximum along the middle axis.

  For an array `x` of extended reals of shape [16, 64, 131072], the result at (b, i, n) is the largest of
  `x (b, j, n)` over the rows `j ≤ i` — the running maximum (`RunningMax.upTo`) of the column (b, ·, n) at row `i`.
  Both programs compute this function: the kernel by six doubling steps on each [64, 8192] tile, the reference as a
  windowed maximum of 64 rows ending at row `i`, the rows before the array's start padded with minus infinity.
-/
import Idealize.ShloMosaic.Lib.ValueIdx
import proofs.«169550_j12506944766530_1_alg».proof.Proof.LibRunningMax

noncomputable section

namespace Cert.Spec

open Idealize.ShloMosaic Idealize.ShloMosaic.ValueIdx RunningMax

/-- The arrays' shape. -/
abbrev Arr : Shape := ⟨3, ![16, 64, 131072]⟩

/-- The cumulative maximum of `x` along axis 1. -/
def cummax (x : Arr.Idx → EReal) : Arr.Idx → EReal :=
  fun i => upTo (fun j : Fin 64 => x (ix3 (i 0) j (i 2))) (i 1)

/-- At (b, p, n) it is the running maximum at row `p` of the column (b, ·, n). -/
theorem cummax_apply (x : Arr.Idx → EReal) (b : Fin 16) (p : Fin 64) (n : Fin 131072) :
    cummax x (ix3 b p n) = upTo (fun j : Fin 64 => x (ix3 b j n)) p := rfl

end Cert.Spec

end
-- ==== Proof.KernelArray.lean ====
/-
  From blocks to the whole array: the kernel's result is the cumulative maximum of its argument.

  The grid is 16 × 16; at point `t = (t₀, t₁)` both windows hold block (t₀, 0, t₁) of their [16, 64, 131072] arrays, of
  sizes [1, 64, 8192]: ALL 64 rows of batch `t₀`, columns `t₁ · 8192 … t₁ · 8192 + 8191`. The scan runs along the rows
  and a block holds whole columns, so what point `t` writes back is the block at `t` of the cumulative maximum of the
  whole argument (`flushed_eq`, from the body's stored value `Block.payload_apply`). The blocks cover the array — the
  entry (b, r, n) lies in the block of the point (b, n / 8192) (`cover`) — so after the run the result array IS the
  cumulative maximum (`final`, `run`).
-/
import proofs.«169550_j12506944766530_1_alg».proof.Proof.Gen.KernelIdeal.Value
import proofs.«169550_j12506944766530_1_alg».proof.Proof.KernelBlock
import proofs.«169550_j12506944766530_1_alg».proof.Proof.Spec

noncomputable section

namespace Cert.KernelIdeal.Whole

open Cert.KernelIdeal Cert.KernelIdeal.Gen Idealize.ShloMosaic Idealize.ShloMosaic.TcCoe Idealize.SL.Sem
open Idealize.ShloMosaic.ValueIdx RunningMax Cert.Spec
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-- The cumulative maximum at an index whose row is `p`, from any description `f` of the index's column. -/
theorem cummax_of_column (x : Arr.Idx → EReal) (i : Arr.Idx) (f : Fin 64 → EReal) (p : Fin 64)
    (hp : (i 1).val = p.val) (hf : ∀ j : Fin 64, f j = x (ix3 (i 0) j (i 2))) : cummax x i = upTo f p := by
  obtain ⟨b, p', n, rfl⟩ : ∃ (b : Fin 16) (p' : Fin 64) (n : Fin 131072), i = ix3 b p' n := ⟨i 0, i 1, i 2, eq_ix3 i⟩
  have e : p' = p := Fin.ext hp
  subst e
  rw [cummax_apply]
  exact congrArg (fun g => upTo g p') (funext fun j => (hf j).symm)

/-- Both windows sit, at every point, at block 0 of the row axis: a block holds all 64 rows. -/
theorem row_block_in (t : Fin cfg0.N) : win0_0.index t (1 : Fin 3) = 0 := rfl
theorem row_block_out (t : Fin cfg0.N) : win0_1.index t (1 : Fin 3) = 0 := rfl

/-- The two windows move together. -/
theorem same_block (t : Fin cfg0.N) (a : Fin 3) : win0_0.index t a = win0_1.index t a := rfl

/-- WHAT POINT `t` WRITES BACK is the block at `t` of the cumulative maximum of the argument array. -/
theorem flushed_eq (c : Dev nD) (t : Fin cfg0.N) :
    (dats m 0 c).flushed 1 t = ((cfg0.win 1).blk t).view.read (Elt Ideal) (cummax (V m c main_arg0)) := by
  rw [Value.flushed1]
  unfold out0_1
  rw [View.canon_unit_zero offsets_zero]
  simp only [View.ld_unit_zero (S := S1x64x8192) offsets_zero]
  funext y
  obtain ⟨z, p, q, rfl⟩ : ∃ (z : Fin 1) (p : Fin 64) (q : Fin 8192), y = ix3 z p q := ⟨y 0, y 1, y 2, eq_ix3 y⟩
  show k0_pay1 (k0_pay2 (iblk m c 0 t)) (k0_pay3 (iblk m c 0 t)) k0_pay4 (k0_pay5 (F := Ideal)) (ix3 z p q)
    = cummax (V m c main_arg0) (((cfg0.win 1).blk t).view.emb (ix3 z p q))
  refine (Block.payload_apply (iblk m c 0 t) z p q).trans (cummax_of_column _ _ _ p ?_ ?_).symm
  · show win0_1.index t (1 : Fin 3) * 64 + 1 * p.val = p.val
    rw [row_block_out]; omega
  · intro j
    show V m c main_arg0 (((cfg0.win 0).blk t).view.emb (ix3 0 j q)) = V m c main_arg0 _
    refine congrArg (V m c main_arg0) (funext fun a => Fin.ext ?_)
    have hz : z.val = 0 := by have := z.isLt; omega
    match a with
    | ⟨0, _⟩ => show win0_0.index t (0 : Fin 3) * 1 + 1 * 0 = win0_1.index t (0 : Fin 3) * 1 + 1 * z.val; rw [same_block, hz]
    | ⟨1, _⟩ => show win0_0.index t (1 : Fin 3) * 64 + 1 * j.val = j.val; rw [row_block_in]; omega
    | ⟨2, _⟩ => show win0_0.index t (2 : Fin 3) * 8192 + 1 * q.val = win0_1.index t (2 : Fin 3) * 8192 + 1 * q.val; rw [same_block]

/-- An index of the array is in point `t`'s block iff each coordinate is in the block's range on its axis. -/
theorem mem_blk (t : Fin cfg0.N) (i : S16x64x131072.Idx) :
    i ∈ ((cfg0.win 1).blk t).view.set ↔ ∀ a : Fin 3, win0_1.index t a * S1x64x8192.size a ≤ (i a).val
      ∧ (i a).val < win0_1.index t a * S1x64x8192.size a + S1x64x8192.size a := by
  show i ∈ ((View.whole main_v0).slice (win0_1.rect t)).set ↔ _
  rw [View.set_slice_whole, Rect.mem_set_unit]
  exact Iff.rfl

/-- The output window's block index at the point numbered `t`: (t / 16, 0, t mod 16). -/
theorem block_at (t : Fin cfg0.N) :
    win0_1.index t (0 : Fin 3) = t.val / 16 % 16 ∧ win0_1.index t (2 : Fin 3) = t.val / 1 % 16 := by
  constructor
  · show (BitVec.ofNat 32 (t.val / 16 % 16)).toNat = t.val / 16 % 16
    rw [BitVec.toNat_ofNat]; omega
  · show (BitVec.ofNat 32 (t.val / 1 % 16)).toNat = t.val / 1 % 16
    rw [BitVec.toNat_ofNat]; omega

/-- THE BLOCKS COVER THE ARRAY: (b, r, n) is in the block of the point (b, n / 8192). -/
theorem cover (i : S16x64x131072.Idx) :
    ∃ t : Fin cfg0.N, (cfg0.win 1).flush t = true ∧ i ∈ ((cfg0.win 1).blk t).view.set := by
  have h0 : (i 0).val < 16 := (i 0).isLt
  have h1 : (i 1).val < 64 := (i 1).isLt
  have h2 : (i 2).val < 131072 := (i 2).isLt
  have hN : cfg0.N = 256 := N_0
  let t : Fin cfg0.N := ⟨(i 0).val * 16 + (i 2).val / 8192, by rw [hN]; omega⟩
  have ht : t.val = (i 0).val * 16 + (i 2).val / 8192 := rfl
  obtain ⟨e0, e2⟩ := block_at t
  refine ⟨t, flush0_1 t, (mem_blk t i).mpr fun a => ?_⟩
  match a with
  | ⟨0, _⟩ =>
    show win0_1.index t (0 : Fin 3) * 1 ≤ (i 0).val ∧ (i 0).val < win0_1.index t (0 : Fin 3) * 1 + 1
    rw [e0, ht]; omega
  | ⟨1, _⟩ =>
    show win0_1.index t (1 : Fin 3) * 64 ≤ (i 1).val ∧ (i 1).val < win0_1.index t (1 : Fin 3) * 64 + 64
    rw [row_block_out]; omega
  | ⟨2, _⟩ =>
    show win0_1.index t (2 : Fin 3) * 8192 ≤ (i 2).val ∧ (i 2).val < win0_1.index t (2 : Fin 3) * 8192 + 8192
    rw [e2, ht]; omega

/-- THE RESULT ARRAY after the run is the cumulative maximum of the argument array. -/
theorem final (c : Dev nD) :
    (dats m 0 c).arrAt 1 cfg0.N = cummax (m ((c : Thread nD τ).loc main_arg0)) :=
  (dats m 0 c).arrAt_eq_of_cover 1 (cummax (V m c main_arg0)) (fun t _ => flushed_eq m c t) cover

/-- The kernel's run: every weakly fair execution terminates with the result array at the cumulative maximum of the
    argument, the argument unchanged. -/
theorem run : θ_run defs (onTc (τ := τ) (main (F := Ideal))) ⟨m, fun _ => 0, ρ⟩ fun r => ∀ c : Dev nD,
      r.2.mem ((c : Thread nD τ).loc main_v0) = cummax (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.ReferenceWindow.lean ====
/-
  The reference's windowed maximum, read at an entry.

  The reference is one windowed reduction by `max` from minus infinity: the window has 64 positions along axis 1 and one
  along the others, the stride is one, and axis 1 is padded below by 63 entries holding minus infinity. The result at
  (b, p, n) is the left fold, from minus infinity, over the window's positions `k = 0 … 63` of the padded array at row
  `p + k` of the padded axis: the entry of `x` at row `p + k - 63` when `63 ≤ p + k`, minus infinity before the array's
  start. Minus infinity is the least extended real, so the fold is the largest of the rows `p - 63 … p` that exist,
  the running maximum at row `p` (`RunningMax.foldl_max_slid_window`).
-/
import proofs.«169550_j12506944766530_1_alg».proof.Proof.Gen.ReferenceIdeal.Read
import proofs.«169550_j12506944766530_1_alg».proof.Proof.Spec

noncomputable section

namespace Cert.ReferenceIdeal.Window

open Cert.ReferenceIdeal Cert.ReferenceIdeal.Gen Idealize.ShloMosaic Idealize.ShloMosaic.ValueIdx RunningMax Cert.Spec

/-- The window's shape: one position along axes 0 and 2, 64 along axis 1. -/
abbrev Win : Shape := ⟨3, ![1, 64, 1]⟩

/-- Position `k` of the window, in row-major order, is (0, k, 0). -/
theorem win_pos (k : Fin 64) : Win.rowMajor.symm k = ix3 0 k 0 :=
  (Equiv.symm_apply_eq Win.rowMajor).mpr (Fin.ext (by
    rw [Shape.rowMajor_val_three]
    show k.val = ((0 : ℕ) * 64 + k.val) * 1 + 0
    omega))

theorem win_pos_0 (k : Fin 64) : (Win.rowMajor.symm k 0).val = 0 := by rw [win_pos k]; rfl
theorem win_pos_1 (k : Fin 64) : (Win.rowMajor.symm k 1).val = k.val := by rw [win_pos k]
theorem win_pos_2 (k : Fin 64) : (Win.rowMajor.symm k 2).val = 0 := by rw [win_pos k]; rfl

/-- The f32 word of minus infinity is the least extended real. -/
theorem neg_inf_word : Ideal.ofBits .f32 0xFF800000#32 = (⊥ : EReal) := by
  simp [Ideal.ofBits, Ideal.ieee]

/-- A case distinction does not depend on how its condition is decided. -/
theorem dite_decidable_irrel {α : Sort _} {c : Prop} (i₁ i₂ : Decidable c) (t : c → α) (e : ¬c → α) :
    @dite α c i₁ t e = @dite α c i₂ t e := by
  cases Subsingleton.elim i₁ i₂; rfl

/-- What position `k` of the window ending at row `p` reads: the padded array at (b, p + k, n) — on each axis the
    result's coordinate times the stride plus the position's coordinate, less the low padding when that is inside the
    array, and minus infinity otherwise. -/
def cell (x : Arr.Idx → EReal) (b : Fin 16) (p : Fin 64) (n : Fin 131072) (k : Fin 64) : EReal :=
  if hin : ∀ a : Fin 3, (![0, 63, 0] : Fin 3 → ℕ) a ≤ (ix3 b p n a).val * (![1, 1, 1] : Fin 3 → ℕ) a + (Win.rowMajor.symm k a).val
      ∧ (ix3 b p n a).val * (![1, 1, 1] : Fin 3 → ℕ) a + (Win.rowMajor.symm k a).val - (![0, 63, 0] : Fin 3 → ℕ) a < Arr.size a then
    x (fun a => ⟨(ix3 b p n a).val * (![1, 1, 1] : Fin 3 → ℕ) a + (Win.rowMajor.symm k a).val - (![0, 63, 0] : Fin 3 → ℕ) a, (hin a).2⟩)
  else ⊥

/-- Inside the array: row `j` of the column, when `j + 63 = p + k`. -/
theorem cell_inside (x : Arr.Idx → EReal) (b : Fin 16) (p : Fin 64) (n : Fin 131072) (k j : Fin 64)
    (h : j.val + 63 = p.val + k.val) : cell x b p n k = x (ix3 b j n) := by
  unfold cell
  have hb := b.isLt
  have hn := n.isLt
  have hj := j.isLt
  have e0 := win_pos_0 k
  have e1 := win_pos_1 k
  have e2 := win_pos_2 k
  have hin : ∀ a : Fin 3, (![0, 63, 0] : Fin 3 → ℕ) a ≤ (ix3 b p n a).val * (![1, 1, 1] : Fin 3 → ℕ) a + (Win.rowMajor.symm k a).val
      ∧ (ix3 b p n a).val * (![1, 1, 1] : Fin 3 → ℕ) a + (Win.rowMajor.symm k a).val - (![0, 63, 0] : Fin 3 → ℕ) a < Arr.size a := by
    intro a
    match a with
    | ⟨0, _⟩ =>
      show 0 ≤ b.val * 1 + (Win.rowMajor.symm k 0).val ∧ b.val * 1 + (Win.rowMajor.symm k 0).val - 0 < 16
      omega
    | ⟨1, _⟩ =>
      show 63 ≤ p.val * 1 + (Win.rowMajor.symm k 1).val ∧ p.val * 1 + (Win.rowMajor.symm k 1).val - 63 < 64
      omega
    | ⟨2, _⟩ =>
      show 0 ≤ n.val * 1 + (Win.rowMajor.symm k 2).val ∧ n.val * 1 + (Win.rowMajor.symm k 2).val - 0 < 131072
      omega
  rw [dif_pos hin]
  refine congrArg x (funext fun a => Fin.ext ?_)
  match a with
  | ⟨0, _⟩ => show b.val * 1 + (Win.rowMajor.symm k 0).val - 0 = b.val; omega
  | ⟨1, _⟩ => show p.val * 1 + (Win.rowMajor.symm k 1).val - 63 = j.val; omega
  | ⟨2, _⟩ => show n.val * 1 + (Win.rowMajor.symm k 2).val - 0 = n.val; omega

/-- Before the array's start: minus infinity, when `p + k < 63`. -/
theorem cell_before (x : Arr.Idx → EReal) (b : Fin 16) (p : Fin 64) (n : Fin 131072) (k : Fin 64)
    (h : p.val + k.val < 63) : cell x b p n k = ⊥ := by
  unfold cell
  refine dif_neg fun hin => ?_
  have e1 := win_pos_1 k
  have h1 : 63 ≤ p.val * 1 + (Win.rowMajor.symm k 1).val := (hin 1).1
  omega

/-- THE REFERENCE'S RESULT is the cumulative maximum of its argument. -/
theorem result_eq (x : Arr.Idx → EReal) : Read.val_main_v0 (F := Ideal) x = cummax x := by
  funext i
  obtain ⟨b, p, n, rfl⟩ : ∃ (b : Fin 16) (p : Fin 64) (n : Fin 131072), i = ix3 b p n := ⟨i 0, i 1, i 2, eq_ix3 i⟩
  rw [cummax_apply, ← foldl_max_slid_window (fun j : Fin 64 => x (ix3 b j n)) (cell x b p n) p
    (fun k j h => cell_inside x b p n k j h) (fun k h => cell_before x b p n k h)]
  unfold Read.val_main_v0 Host.reduceWindow
  have hv : Read.val_main_call0_v0 (F := Ideal) (Shape.Idx.first h_S_) = (⊥ : EReal) := by
    rw [Read.val_main_call0_v0_apply, Read.val_main_call0_cst_apply]
    exact neg_inf_word
  dsimp only
  rw [hv]
  refine List.foldl_ext _ _ _ fun r (k : Fin 64) _ => ?_
  show max r _ = max r (cell x b p n k)
  unfold cell
  exact congrArg (max r) (dite_decidable_irrel _ _ _ _)

end Cert.ReferenceIdeal.Window

end
-- ==== Proof.lean ====
/-
  The kernel computes the cumulative maximum along axis 1 of a [16, 64, 131072] array, and so does the reference.

  THE KERNEL walks a 16 × 16 grid; each point holds a [1, 64, 8192] block — all 64 rows of one batch entry, 8192
  columns — and runs on it the doubling scan of Hillis and Steele: six steps `c ↦ max c (c moved down by d rows, the
  first d rows set to -inf)` with `d = 1, 2, 4, 8, 16, 32`. After the step with shift `d` every entry is the largest of
  the `d + d` entries of its column ending at its row (Proof/LibRunningMax.lean, Proof/ScanStep.lean), so after the
  sixth it is the largest of the whole column up to its row (Proof/KernelBlock.lean). A block holds whole columns, and
  the blocks tile the array, so the result array is the cumulative maximum of the argument (Proof/KernelArray.lean).

  THE REFERENCE is one windowed maximum: at row `p` the window covers the rows `p - 63 … p`, the rows before the
  array's start reading -inf. As -inf is the least extended real this is again the largest entry of the column up to
  row `p` (Proof/ReferenceWindow.lean).

  On the extended reals `max` is exact and -inf is its neutral element, so the two results agree entry by entry for
  every argument; finiteness of the input is not used. The frames of the two kernel programs are the generated ones; the
  reference's frame is its generated run with the result dropped; the idealization rewrote nothing, so `preserves` is
  trivial.
-/
import proofs.«169550_j12506944766530_1_alg».proof.Defs
import proofs.«169550_j12506944766530_1_alg».proof.Proof.Gen.Kernel
import proofs.«169550_j12506944766530_1_alg».proof.Proof.Gen.Kernel.Frame
import proofs.«169550_j12506944766530_1_alg».proof.Proof.Gen.KernelIdeal
import proofs.«169550_j12506944766530_1_alg».proof.Proof.Gen.KernelIdeal.Frame
import proofs.«169550_j12506944766530_1_alg».proof.Proof.Gen.KernelIdeal.Value
import proofs.«169550_j12506944766530_1_alg».proof.Proof.Gen.ReferenceIdeal
import proofs.«169550_j12506944766530_1_alg».proof.Proof.Gen.ReferenceIdeal.Run
import proofs.«169550_j12506944766530_1_alg».proof.Proof.Gen.ReferenceIdeal.Read
import proofs.«169550_j12506944766530_1_alg».proof.Proof.Gen.Pre_finite_inputs
import proofs.«169550_j12506944766530_1_alg».proof.Proof.KernelArray
import proofs.«169550_j12506944766530_1_alg».proof.Proof.ReferenceWindow
import Idealize.ShloMosaic.Adequacy
import Idealize.ShloMosaic.Init

noncomputable section

namespace Cert.Proof

open Idealize.ShloMosaic Idealize.ShloMosaic.TcCoe Idealize.SL.Sem

/-- The word-level kernel runs, faults nowhere and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument as it was: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the cumulative maximum of the (common) argument in their result arrays. -/
theorem algebraic : Cert.algebraic_KernelIdeal_ReferenceIdeal := by
  intro m ρ m' ρ' _ hagree
  refine ⟨fun c => Cert.Spec.cummax (m ((c : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.ReferenceIdeal.Window.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
